-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x41 : Shape := ⟨2, ![64, 41]⟩
abbrev S41 : Shape := ⟨1, ![41]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x41 : S_.BroadcastsInDim S64x41 (![] : Fin 0 → Fin S64x41.rank)
  reducesTo_S64x41_S_d0_1 : S64x41.ReducesTo [0, 1] S_
  bcast_S_S41 : S_.BroadcastsInDim S41 (![] : Fin 0 → Fin S41.rank)
  reducesTo_S41_S_d0 : S41.ReducesTo [0] S_

variable [Facts]

def fn_part1 {F : FTy → Type} [FloatOps F] (main_arg5 : FVec F S41 .f32) (main_v13 : IVec S_ 1) (main_v16 : IVec S64x41 1) : IVec S_ 1 :=
  let main_c_5 : IVec S_ 1 := constantI S_ 1 1#1
  let main_v17 : IVec S_ 1 := (fun x v => Host.reduce IntOp.andi x v reducesTo_S64x41_S_d0_1 h_S_) main_v16 main_c_5
  let main_v18 : IVec S_ 1 := andi main_v13 main_v17
  let main_v19 : FVec F S41 .f32 := Host.absf main_arg5
  let main_cst_6 : FVec F S_ .f32 := constant S_ .f32 0x7F800000#32
  let main_v20 : FVec F S41 .f32 := broadcastInDim S41 ![] bcast_S_S41 main_cst_6
  let main_v21 : IVec S41 1 := cmpf .olt main_v19 main_v20
  let main_c_7 : IVec S_ 1 := constantI S_ 1 1#1
  let main_v22 : IVec S_ 1 := (fun x v => Host.reduce IntOp.andi x v reducesTo_S41_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x41 .f32) (main_arg5 : FVec F S41 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x41 .f32 := Host.absf main_arg4
  let main_cst_4 : FVec F S_ .f32 := constant S_ .f32 0x7F800000#32
  let main_v15 : FVec F S64x41 .f32 := broadcastInDim S64x41 ![] bcast_S_S64x41 main_cst_4
  let main_v16 : IVec S64x41 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x41 : Shape := ⟨2, ![64, 41]⟩
abbrev S41 : Shape := ⟨1, ![41]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x41 : Shape := ⟨2, ![100000, 41]⟩
abbrev S10000x41 : Shape := ⟨2, ![10000, 41]⟩
abbrev S1700000x41 : Shape := ⟨2, ![1700000, 41]⟩
abbrev S1x41 : Shape := ⟨2, ![1, 41]⟩

abbrev nBuf : Space → Nat
  | .hbm => 79
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x41, .f32⟩
  | .hbm, ⟨5, _⟩ => ⟨S41, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x64, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x64, .f32⟩
  | .hbm, ⟨51, _⟩ => ⟨S1700000x1, .f32⟩
  | .hbm, ⟨52, _⟩ => ⟨S1700000x64, .f32⟩
  | .hbm, ⟨53, _⟩ => ⟨S1700000x64, .f32⟩
  | .hbm, ⟨54, _⟩ => ⟨S_, .f32⟩
  | .hbm, ⟨55, _⟩ => ⟨S100000x64, .f32⟩
  | .hbm, ⟨56, _⟩ => ⟨S1700000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x41, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x41, .f32⟩
  | .hbm, ⟨70, _⟩ => ⟨S1700000x1, .f32⟩
  | .hbm, ⟨71, _⟩ => ⟨S1700000x41, .f32⟩
  | .hbm, ⟨72, _⟩ => ⟨S1700000x41, .f32⟩
  | .hbm, ⟨73, _⟩ => ⟨S_, .f32⟩
  | .hbm, ⟨74, _⟩ => ⟨S100000x41, .f32⟩
  | .hbm, ⟨75, _⟩ => ⟨S1700000x1, .i32⟩
  | .hbm, ⟨76, _⟩ => ⟨S100000x41, .f32⟩
  | .hbm, ⟨77, _⟩ => ⟨S1x41, .f32⟩
  | .hbm, ⟨78, _⟩ => ⟨S100000x41, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x41, .f32⟩
  | .local _ .vmem, ⟨13, _⟩ => ⟨S10000x41, .f32⟩
  | .local _ .vmem, ⟨14, _⟩ => ⟨S10000x41, .f32⟩
  | .local _ .vmem, ⟨15, _⟩ => ⟨S10000x41, .f32⟩
  | .local _ .vmem, ⟨16, _⟩ => ⟨S10000x41, .f32⟩
  | .local _ .vmem, ⟨17, _⟩ => ⟨S1x41, .f32⟩
  | .local _ .vmem, ⟨18, _⟩ => ⟨S10000x41, .f32⟩
  | .local _ .vmem, ⟨19, _⟩ => ⟨S10000x41, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x41 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x41 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x41 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x41 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x41 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x41_S64x41_0_0 : ∀ a, (![0, 0] : Fin 2 → Nat) a + S64x41.size a ≤ S64x41.size a
  h_S64x41 : 0 < S64x41.numel
  inb_S10000x41_S10000x41_0_0 : ∀ a, (![0, 0] : Fin 2 → Nat) a + S10000x41.size a ≤ S10000x41.size a
  h_S10000x41 : 0 < S10000x41.numel
  bcast_S1700000x1_S1700000x41_0_1 : S1700000x1.BroadcastsInDim S1700000x41 (![0, 1] : Fin 2 → Fin S1700000x41.rank)
  bcast_S_S100000x41 : S_.BroadcastsInDim S100000x41 (![] : Fin 0 → Fin S100000x41.rank)
  shapeCasts_S41_S1x41 : S41.ShapeCasts S1x41
  shapeCasts_S10000x41_S10000x41 : S10000x41.ShapeCasts S10000x41
  inb_S1x41_S1x41_0_0 : ∀ a, (![0, 0] : Fin 2 → Nat) a + S1x41.size a ≤ S1x41.size a
  h_S1x41 : 0 < S1x41.numel
  shapeCasts_S1x41_S1x41 : S1x41.ShapeCasts S1x41
  broadcasts_S1x41_S10000x41 : S1x41.Broadcasts S10000x41
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x41_S10000x41_1_0_0_1_n_n_wf : DotDims.WF S10000x64 S64x41 S10000x41 [1] [0] [0] [1] [] []
  gather_S100000x41_S1700000x1_S1700000x41_1_0_n_n_0_1_141_wf : GatherDims.WF S100000x41 S1700000x1 S1700000x41 [1] [0] [] [0] [] 1 ![1, 41]
  scatter_S100000x41_S1700000x1_S1700000x41_1_0_0_1_wf : ScatterDims.WF S100000x41 S1700000x1 S1700000x41 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x41.size a ≤ S64x41.size a
  hwx2_1 : ∀ i : grid2.Coords, EltTy.bits .f32 = 32 ∨ (Rect.block (s := S64x41) S64x41.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x41.size a ≤ S100000x41.size a
  hwx2_2 : ∀ i : grid2.Coords, EltTy.bits .f32 = 32 ∨ (Rect.block (s := S100000x41) S10000x41.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x41.size a ≤ S100000x41.size a
  hwx3_0 : ∀ i : grid3.Coords, EltTy.bits .f32 = 32 ∨ (Rect.block (s := S100000x41) S10000x41.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x41.size a ≤ S1x41.size a
  hwx3_1 : ∀ i : grid3.Coords, EltTy.bits .f32 = 32 ∨ (Rect.block (s := S1x41) S1x41.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x41.size a ≤ S100000x41.size a
  hwx3_2 : ∀ i : grid3.Coords, EltTy.bits .f32 = 32 ∨ (Rect.block (s := S100000x41) S10000x41.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x41_S10000x41_1_0_0_1_n_n : DotDims S10000x64 S64x41 S10000x41 where
  lhsContracting := [1]
  rhsContracting := [0]
  lhsNonContracting := [0]
  rhsNonContracting := [1]
  lhsBatch := []
  rhsBatch := []
  wf := dot_S10000x64_S64x41_S10000x41_1_0_0_1_n_n_wf
def gather_S100000x41_S1700000x1_S1700000x41_1_0_n_n_0_1_141 : GatherDims S100000x41 S1700000x1 S1700000x41 where
  offsetDims := [1]
  collapsedSliceDims := [0]
  operandBatchingDims := []
  startIndicesBatchingDims := []
  startIndexMap := [0]
  indexVectorDim := 1
  sliceSizes := ![1, 41]
  wf := gather_S100000x41_S1700000x1_S1700000x41_1_0_n_n_0_1_141_wf
def scatter_S100000x41_S1700000x1_S1700000x41_1_0_0_1 : ScatterDims S100000x41 S1700000x1 S1700000x41 where
  updateWindowDims := [1]
  insertedWindowDims := [0]
  scatterDimsToOperandDims := [0]
  indexVectorDim := 1
  wf := scatter_S100000x41_S1700000x1_S1700000x41_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x41.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x41.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x41.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1x41.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S10000x41.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x41 : Shape := ⟨2, ![64, 41]⟩
abbrev S41 : Shape := ⟨1, ![41]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x41 : Shape := ⟨2, ![100000, 41]⟩
abbrev S1700000x41 : Shape := ⟨2, ![1700000, 41]⟩
abbrev S1x41 : Shape := ⟨2, ![1, 41]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x41, .f32⟩
  | .hbm, ⟨5, _⟩ => ⟨S41, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x64, .f32⟩
  | .hbm, ⟨51, _⟩ => ⟨S1700000x1, .f32⟩
  | .hbm, ⟨52, _⟩ => ⟨S1700000x64, .f32⟩
  | .hbm, ⟨53, _⟩ => ⟨S1700000x64, .f32⟩
  | .hbm, ⟨54, _⟩ => ⟨S_, .f32⟩
  | .hbm, ⟨55, _⟩ => ⟨S100000x64, .f32⟩
  | .hbm, ⟨56, _⟩ => ⟨S1700000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S100000x41, .f32⟩
  | .hbm, ⟨65, _⟩ => ⟨S_, .f32⟩
  | .hbm, ⟨66, _⟩ => ⟨S1700000, .f32⟩
  | .hbm, ⟨67, _⟩ => ⟨S_, .f32⟩
  | .hbm, ⟨68, _⟩ => ⟨S100000, .f32⟩
  | .hbm, ⟨69, _⟩ => ⟨S1700000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000, .f32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000x41, .f32⟩
  | .hbm, ⟨102, _⟩ => ⟨S1700000x1, .f32⟩
  | .hbm, ⟨103, _⟩ => ⟨S1700000x41, .f32⟩
  | .hbm, ⟨104, _⟩ => ⟨S1700000x41, .f32⟩
  | .hbm, ⟨105, _⟩ => ⟨S_, .f32⟩
  | .hbm, ⟨106, _⟩ => ⟨S100000x41, .f32⟩
  | .hbm, ⟨107, _⟩ => ⟨S1700000x1, .i32⟩
  | .hbm, ⟨108, _⟩ => ⟨S100000x41, .f32⟩
  | .hbm, ⟨109, _⟩ => ⟨S1x41, .f32⟩
  | .hbm, ⟨110, _⟩ => ⟨S100000x41, .f32⟩
  | .hbm, ⟨111, _⟩ => ⟨S100000x41, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call0_cst : Ref sig .tc := ⟨.hbm, 61, rfl⟩
abbrev main_call0_v0 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_c_14 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_c_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_17 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x41_0_1 : S1700000x1.BroadcastsInDim S1700000x41 (![0, 1] : Fin 2 → Fin S1700000x41.rank)
  bcast_S_S100000x41 : S_.BroadcastsInDim S100000x41 (![] : Fin 0 → Fin S100000x41.rank)
  bcast_S41_S1x41_1 : S41.BroadcastsInDim S1x41 (![1] : Fin 1 → Fin S1x41.rank)
  bcast_S1x41_S100000x41_0_1 : S1x41.BroadcastsInDim S100000x41 (![0, 1] : Fin 2 → Fin S100000x41.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x41_S100000x41_1_0_0_1_n_n_wf : DotDims.WF S100000x64 S64x41 S100000x41 [1] [0] [0] [1] [] []
  gather_S100000x41_S1700000x1_S1700000x41_1_0_n_n_0_1_141_wf : GatherDims.WF S100000x41 S1700000x1 S1700000x41 [1] [0] [] [0] [] 1 ![1, 41]
  scatter_S100000x41_S1700000x1_S1700000x41_1_0_0_1_wf : ScatterDims.WF S100000x41 S1700000x1 S1700000x41 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x41_S100000x41_1_0_0_1_n_n : DotDims S100000x64 S64x41 S100000x41 where
  lhsContracting := [1]
  rhsContracting := [0]
  lhsNonContracting := [0]
  rhsNonContracting := [1]
  lhsBatch := []
  rhsBatch := []
  wf := dot_S100000x64_S64x41_S100000x41_1_0_0_1_n_n_wf
def gather_S100000x41_S1700000x1_S1700000x41_1_0_n_n_0_1_141 : GatherDims S100000x41 S1700000x1 S1700000x41 where
  offsetDims := [1]
  collapsedSliceDims := [0]
  operandBatchingDims := []
  startIndicesBatchingDims := []
  startIndexMap := [0]
  indexVectorDim := 1
  sliceSizes := ![1, 41]
  wf := gather_S100000x41_S1700000x1_S1700000x41_1_0_n_n_0_1_141_wf
def scatter_S100000x41_S1700000x1_S1700000x41_1_0_0_1 : ScatterDims S100000x41 S1700000x1 S1700000x41 where
  updateWindowDims := [1]
  insertedWindowDims := [0]
  scatterDimsToOperandDims := [0]
  indexVectorDim := 1
  wf := scatter_S100000x41_S1700000x1_S1700000x41_1_0_0_1_wf

class Facts : Prop extends Facts₀ where

variable [Facts]
-- ==== Proof.KernelRun.lean ====
/-
  The idealized kernel's run with its result array named.

  The program is four kernel regions among stretches of host operations. The buffer contents at each boundary
  are a fold from the launch memory: a host stretch maps the contents through its operations, a region replaces
  its output array by what its write-backs leave and keeps every other buffer. The run below says that every
  weakly fair execution terminates with the result buffer at the last boundary's contents, and the arguments as
  launched. It is the frame's launch over the same segments, the last thread state read at one more buffer.
-/
import proofs.«170497_j11793980195193_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and each argument as launched. -/
theorem run : θ_run defs (onTc (τ := τ) (main (F := F))) ⟨m, fun _ => 0, ρ⟩ (fun r => ∀ c : Dev nD,
      r.2.mem ((c.tc : Thread nD τ).loc main_v59) = W7 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v59 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.Boundary1.lean ====
/-
  The host stretch before the first region of the idealized kernel, read at the buffers the later stretches use.

  Before the first region the program builds, from the edge list alone, the source and destination node of every edge
  (the given edges followed by one self-loop per node) and the symmetric normalisation weight of every edge: the
  product of the two end nodes' degree^(-1/2), the degree counted as a scatter-add of ones over the destinations.
  The reference program builds the same three arrays by the same operations; each is stated here as the reference's
  own stage function of the edge list.
-/
import proofs.«170497_j11793980195193_1_alg».proof.Proof.Gen.KernelIdeal.Frame
import proofs.«170497_j11793980195193_1_alg».proof.Proof.Gen.ReferenceIdeal.Read

import Idealize.ShloMosaic.Lib.StableHlo.Run

set_option maxRecDepth 16384

noncomputable section

namespace Cert.KernelIdeal.Boundary1

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read

variable (m : (ℓ : Loc nD τ sig) → Buf (Elt Ideal) ℓ) (ρ : Dev nD → PrngReg)

/-- The source node of every edge. -/
theorem src (c : Dev nD) :
    W1 m ρ c (Proc.devRef .tc main_v3) = val_main_v3 (F := Ideal) (m ((c.tc : Thread nD τ).loc main_arg1)) := by
  show StableHlo.after hostOps0 (W0 m ρ c) (Proc.devRef .tc main_v3) = _
  dsimp only [hostOps0]
  after_results
  rfl

/-- The destination node of every edge. -/
theorem dst (c : Dev nD) :
    W1 m ρ c (Proc.devRef .tc main_v6) = val_main_v6 (F := Ideal) (m ((c.tc : Thread nD τ).loc main_arg1)) := by
  show StableHlo.after hostOps0 (W0 m ρ c) (Proc.devRef .tc main_v6) = _
  dsimp only [hostOps0]
  after_results
  rfl

set_option maxHeartbeats 4000000 in
/-- The normalisation weight of every edge. -/
theorem norm (c : Dev nD) :
    W1 m ρ c (Proc.devRef .tc main_v27) = val_main_v28 (F := Ideal) (m ((c.tc : Thread nD τ).loc main_arg1)) := by
  show StableHlo.after hostOps0 (W0 m ρ c) (Proc.devRef .tc main_v27) = _
  dsimp only [hostOps0]
  after_results_simp
  rfl

/-- An argument the stretch does not write is as launched. -/
theorem arg0 (c : Dev nD) : W1 m ρ c (Proc.devRef .tc main_arg0) = m ((c.tc : Thread nD τ).loc main_arg0) := by
  show StableHlo.after hostOps0 (W0 m ρ c) (Proc.devRef .tc main_arg0) = _
  dsimp only [hostOps0]
  after_results
theorem arg2 (c : Dev nD) : W1 m ρ c (Proc.devRef .tc main_arg2) = m ((c.tc : Thread nD τ).loc main_arg2) := by
  show StableHlo.after hostOps0 (W0 m ρ c) (Proc.devRef .tc main_arg2) = _
  dsimp only [hostOps0]
  after_results
theorem arg3 (c : Dev nD) : W1 m ρ c (Proc.devRef .tc main_arg3) = m ((c.tc : Thread nD τ).loc main_arg3) := by
  show StableHlo.after hostOps0 (W0 m ρ c) (Proc.devRef .tc main_arg3) = _
  dsimp only [hostOps0]
  after_results
theorem arg4 (c : Dev nD) : W1 m ρ c (Proc.devRef .tc main_arg4) = m ((c.tc : Thread nD τ).loc main_arg4) := by
  show StableHlo.after hostOps0 (W0 m ρ c) (Proc.devRef .tc main_arg4) = _
  dsimp only [hostOps0]
  after_results
theorem arg5 (c : Dev nD) : W1 m ρ c (Proc.devRef .tc main_arg5) = m ((c.tc : Thread nD τ).loc main_arg5) := by
  show StableHlo.after hostOps0 (W0 m ρ c) (Proc.devRef .tc main_arg5) = _
  dsimp only [hostOps0]
  after_results

end Cert.KernelIdeal.Boundary1

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.LibRowBlocks.lean ====
/-
  Row blocks of the layers of a row-wise network, read at an entry, at the ideal values and over arbitrary extents.

  A kernel that tiles the rows of an array computes each layer on a block of rows. For a matrix product the entry
  (p, q) of the block's product is the sum over k of x (row p, k) * w (k, q), which is the entry (row p, q) of the
  whole product: a row of a product depends on the same row of the left operand only. Rounding an operand to a
  narrower float format is the identity at the ideal values. For a bias the entry (p, q) of "block plus the one-row
  bias broadcast down the rows" is x (p, q) + b (0, q).
-/
import Idealize.ShloMosaic.PureOps.Ideal.Laws
import Idealize.ShloMosaic.Lib.ValueIdx
import Idealize.ShloMosaic.Lib.ValueLayout
import Idealize.ShloMosaic.Lib.Pipeline.Value
import proofs.«170497_j11793980195193_1_alg».proof.Proof.LibPlainDot

noncomputable section

namespace Cert.Lib.RowBlocks

open Idealize.ShloMosaic Idealize.ShloMosaic.ValueIdx

/-- The product of a block of rows (both operands first rounded to a narrower format, into a zero accumulator), at
    entry (p, q), is the whole product's entry (row p, q), when the block's row p is the array's row `row p`. -/
theorem matmul_rows_apply {B M K N : ℕ} {ψ : FTy} (h : ψ.bits < FTy.bits .f32)
    (x0 : FVec Ideal ⟨2, ![B, K]⟩ .f32) (x1 : FVec Ideal ⟨2, ![K, N]⟩ .f32) (X : FVec Ideal ⟨2, ![M, K]⟩ .f32)
    (W : FVec Ideal ⟨2, ![K, N]⟩ .f32) (row : Fin B → Fin M) (hx : ∀ p k, x0 (ix2 p k) = X (ix2 (row p) k))
    (hw : ∀ k q, x1 (ix2 k q) = W (ix2 k q)) (p : Fin B) (q : Fin N) :
    FloatOps.matmul (DotDims.plain B K N) none (truncf ψ x0 h) (truncf ψ x1 h)
        (constant ⟨2, ![B, N]⟩ .f32 0x00000000#32) (ix2 p q)
      = Host.dotGeneral (F := Ideal) (DotDims.plain M K N) none X W (ix2 (row p) q) := by
  rw [Cert.Lib.PlainDot.matmul_zero_apply]
  refine ((Cert.Lib.PlainDot.dotGeneral_apply M K N none .single X W (ix2 (row p) q)).trans ?_).symm
  refine Finset.sum_congr rfl fun k _ => ?_
  show X (ix2 (row p) k) * W (ix2 k q) = truncf ψ x0 h (ix2 p k) * truncf ψ x1 h (ix2 k q)
  rw [truncf_apply, truncf_apply, hx, hw]

/-- A block of rows plus a one-row bias broadcast down the rows, at entry (p, q). -/
theorem bias_rows_apply {B N : ℕ} (x0 : FVec Ideal ⟨2, ![B, N]⟩ .f32) (x1 : FVec Ideal ⟨2, ![1, N]⟩ .f32)
    (h0 : (⟨2, ![B, N]⟩ : Shape).ShapeCasts ⟨2, ![B, N]⟩) (h1 : (⟨2, ![1, N]⟩ : Shape).ShapeCasts ⟨2, ![1, N]⟩)
    (hb : (⟨2, ![1, N]⟩ : Shape).Broadcasts ⟨2, ![B, N]⟩) (p : Fin B) (q : Fin N) :
    addf (shapeCast ⟨2, ![B, N]⟩ x0 h0) (broadcastTo ⟨2, ![B, N]⟩ (shapeCast ⟨2, ![1, N]⟩ x1 h1) hb) (ix2 p q)
      = x0 (ix2 p q) + x1 (ix2 (0 : Fin 1) q) := by
  rw [addf_apply, shapeCast_self, shapeCast_self, broadcastTo_1b_ab_apply]

/-- The same followed by the maximum with a zero splat. -/
theorem bias_relu_rows_apply {B N : ℕ} (x0 : FVec Ideal ⟨2, ![B, N]⟩ .f32) (x1 : FVec Ideal ⟨2, ![1, N]⟩ .f32)
    (h0 : (⟨2, ![B, N]⟩ : Shape).ShapeCasts ⟨2, ![B, N]⟩) (h1 : (⟨2, ![1, N]⟩ : Shape).ShapeCasts ⟨2, ![1, N]⟩)
    (hb : (⟨2, ![1, N]⟩ : Shape).Broadcasts ⟨2, ![B, N]⟩) (z : Ideal .f32) (p : Fin B) (q : Fin N) :
    maximumf (addf (shapeCast ⟨2, ![B, N]⟩ x0 h0) (broadcastTo ⟨2, ![B, N]⟩ (shapeCast ⟨2, ![1, N]⟩ x1 h1) hb))
        (broadcast ⟨2, ![B, N]⟩ z) (ix2 p q)
      = max (x0 (ix2 p q) + x1 (ix2 (0 : Fin 1) q)) z := by
  rw [maximumf_apply, bias_rows_apply, broadcast_apply]

end Cert.Lib.RowBlocks

end
-- ==== Proof.Region0.lean ====
/-
  Region 0 of the idealized kernel: a matrix product tiled over the rows.

  The grid has ten points; point t stages rows 10000 t … 10000 t + 9999 of the left operand and the whole right
  operand, and writes back the same rows of the result. At the ideal values the body's product of the block (both
  operands rounded to a narrower format first, which changes nothing) is, entry by entry, the same sum over the
  contracted axis as the whole product's at that row. The ten blocks tile the result array, so after the region the
  array is the whole product of the two arrays the region found.
-/
import proofs.«170497_j11793980195193_1_alg».proof.Proof.Gen.KernelIdeal.Frame
import proofs.«170497_j11793980195193_1_alg».proof.Proof.LibRowBlocks
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole product of the two arrays. -/
abbrev G (a0 : FVec Ideal S100000x128 .f32) (a1 : FVec Ideal S128x64 .f32) : FVec Ideal S100000x64 .f32 :=
  Host.dotGeneral (F := Ideal) (DotDims.plain 100000 128 64) none a0 a1

/-- The body's one payload is the product of its two loaded blocks into a zero accumulator. -/
theorem pay_eq (x0 : Vec Ideal S10000x128 .f32) (x1 : Vec Ideal S128x64 .f32) :
    k0_pay1 x0 x1 = FloatOps.matmul (F := Ideal) (DotDims.plain 10000 128 64) none (truncf .bf16 x0 bitsLt_bf16_f32)
      (truncf .bf16 x1 bitsLt_bf16_f32) (constant ⟨2, ![10000, 64]⟩ .f32 0x00000000#32) := rfl

/-- The windows' index maps over the grid: the row windows sit at block row t, the right operand's at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed_eq (c : Dev nD) (t : Fin cfg0.N) :
    (dat0 V c).flushed 2 t = ((cfg0.win 2).blk t).view.read (Elt Ideal) (G (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  rw [pay_eq]
  obtain ⟨e0, e1, e2, e3, e4, e5⟩ := idx_facts t
  have ht : t.val < 10 := lt_of_lt_of_eq t.isLt N_0
  funext j
  obtain ⟨p, q, rfl⟩ : ∃ (p : Fin 10000) (q : Fin 64), j = ix2 p q := ⟨j 0, j 1, eq_ix2 j⟩
  have hp : p.val < 10000 := p.isLt
  have hemb : ((cfg0.win 2).blk t).view.emb (ix2 p q) = ix2 (⟨t.val * 10000 + p.val, by omega⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  show FloatOps.matmul (F := Ideal) (DotDims.plain 10000 128 64) none (truncf .bf16 (iblk0 V c 0 t) bitsLt_bf16_f32)
      (truncf .bf16 (iblk0 V c 1 t) bitsLt_bf16_f32) (constant ⟨2, ![10000, 64]⟩ .f32 0x00000000#32) (ix2 p q)
    = G (V c main_arg0) (V c main_arg2) (((cfg0.win 2).blk t).view.emb (ix2 p q))
  rw [hemb]
  refine Cert.Lib.RowBlocks.matmul_rows_apply bitsLt_bf16_f32 (iblk0 V c 0 t) (iblk0 V c 1 t) (V c main_arg0) (V c main_arg2)
    (fun p' => (⟨t.val * 10000 + p'.val, by have := p'.isLt; omega⟩ : Fin 100000)) (fun p' k => ?_) (fun k q' => ?_) p q
  · show V c main_arg0 (((cfg0.win 0).blk t).view.emb (ix2 p' k)) = _
    refine congrArg (V c main_arg0) (funext fun a => Fin.ext ?_)
    match a with
    | ⟨0, _⟩ => show win0_0.index t (0 : Fin 2) * 10000 + 1 * p'.val = t.val * 10000 + p'.val; omega
    | ⟨1, _⟩ => show win0_0.index t (1 : Fin 2) * 128 + 1 * k.val = k.val; omega
  · show V c main_arg2 (((cfg0.win 1).blk t).view.emb (ix2 k q')) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * q'.val = q'.val; omega

/-- An index of the result array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v28).slice (win0_2.rect t)).set ↔ _
  rw [View.set_slice_whole, Rect.mem_set_unit]
  exact Iff.rfl

/-- Every index of the result array is in the block of the point its row falls in. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have hlt : (i 0).val / 10000 < cfg0.N := by rw [hN]; omega
  obtain ⟨-, -, -, -, e4, e5⟩ := idx_facts ⟨(i 0).val / 10000, hlt⟩
  refine ⟨⟨(i 0).val / 10000, hlt⟩, flush0_2 _, ?_⟩
  rw [mem_blk]
  intro a
  match a with
  | ⟨0, _⟩ =>
    show win0_2.index ⟨(i 0).val / 10000, hlt⟩ (0 : Fin 2) * 10000 ≤ (i 0).val
      ∧ (i 0).val < win0_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hlt⟩ (1 : Fin 2) * 64 ≤ (i 1).val
      ∧ (i 1).val < win0_2.index ⟨(i 0).val / 10000, hlt⟩ (1 : Fin 2) * 64 + 64
    rw [e5]; omega

/-- After the region its result array is the whole product of the two arrays the region found. -/
theorem final (c : Dev nD) : (dat0 V c).arrAt 2 cfg0.N = G (V c main_arg0) (V c main_arg2) :=
  (dat0 V c).arrAt_eq_of_cover 2 (G (V c main_arg0) (V c main_arg2)) (fun t _ => flushed_eq V c t) cover

end Cert.KernelIdeal.Region0

end
-- ==== Proof.Region1.lean ====
/-
  Region 1 of the idealized kernel: a bias added to every row, then the maximum with zero, tiled over the rows.

  The grid has ten points; point t stages rows 10000 t … 10000 t + 9999 of the array and the one-row bias, and writes
  back the same rows of the result: entry (p, q) of the block is x (p, q) + b (0, q), then its maximum with the zero word. The ten
  blocks tile the result array, so after the region the array is that function of the two arrays the region found.
-/
import proofs.«170497_j11793980195193_1_alg».proof.Proof.Gen.KernelIdeal.Frame
import proofs.«170497_j11793980195193_1_alg».proof.Proof.LibRowBlocks
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every row of the array plus the one-row bias, then the maximum with the zero word. -/
def G (a0 : FVec Ideal S100000x64 .f32) (a1 : FVec Ideal S1x64 .f32) : FVec Ideal S100000x64 .f32 :=
  fun i => max (a0 i + a1 (ix2 (0 : Fin 1) (⟨(i 1).val, (i 1).isLt⟩ : Fin 64))) (Scalar.ofBits (F := Ideal) .f32 0x00000000#32)

/-- The body's one payload, as operations of its two loaded blocks. -/
theorem pay_eq (x0 : Vec Ideal S10000x64 .f32) (x1 : Vec Ideal S1x64 .f32) :
    k1_pay1 x0 x1 = maximumf (addf (shapeCast ⟨2, ![10000, 64]⟩ x0 shapeCasts_S10000x64_S10000x64)
      (broadcastTo ⟨2, ![10000, 64]⟩ (shapeCast ⟨2, ![1, 64]⟩ x1 shapeCasts_S1x64_S1x64) broadcasts_S1x64_S10000x64))
      (broadcast ⟨2, ![10000, 64]⟩ (Scalar.ofBits (F := Ideal) .f32 0x00000000#32)) := rfl

/-- The windows' index maps over the grid: the row windows sit at block row t, the bias's at its one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of that function of the arrays. -/
theorem flushed_eq (c : Dev nD) (t : Fin cfg1.N) :
    (dat1 V c).flushed 2 t = ((cfg1.win 2).blk t).view.read (Elt Ideal) (G (V c main_v41) (V c main_v42)) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  rw [pay_eq]
  obtain ⟨e0, e1, e2, e3, e4, e5⟩ := idx_facts t
  have ht : t.val < 10 := lt_of_lt_of_eq t.isLt N_1
  funext j
  obtain ⟨p, q, rfl⟩ : ∃ (p : Fin 10000) (q : Fin 64), j = ix2 p q := ⟨j 0, j 1, eq_ix2 j⟩
  have hp : p.val < 10000 := p.isLt
  have hemb : ((cfg1.win 2).blk t).view.emb (ix2 p q) = ix2 (⟨t.val * 10000 + p.val, by omega⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 64 + 1 * q.val = q.val; omega
  show (maximumf (addf (shapeCast ⟨2, ![10000, 64]⟩ (iblk1 V c 0 t) shapeCasts_S10000x64_S10000x64)
      (broadcastTo ⟨2, ![10000, 64]⟩ (shapeCast ⟨2, ![1, 64]⟩ (iblk1 V c 1 t) shapeCasts_S1x64_S1x64) broadcasts_S1x64_S10000x64))
      (broadcast ⟨2, ![10000, 64]⟩ (Scalar.ofBits (F := Ideal) .f32 0x00000000#32)) : FVec Ideal ⟨2, ![10000, 64]⟩ .f32) (ix2 p q)
    = G (V c main_v41) (V c main_v42) (((cfg1.win 2).blk t).view.emb (ix2 p q))
  rw [hemb]
  refine (Cert.Lib.RowBlocks.bias_relu_rows_apply (iblk1 V c 0 t) (iblk1 V c 1 t) shapeCasts_S10000x64_S10000x64 shapeCasts_S1x64_S1x64
    broadcasts_S1x64_S10000x64 (Scalar.ofBits (F := Ideal) .f32 0x00000000#32) p q).trans ?_
  have h0 : iblk1 V c 0 t (ix2 p q) = V c main_v41 (ix2 (⟨t.val * 10000 + p.val, by omega⟩ : Fin 100000) q) := by
    show V c main_v41 (((cfg1.win 0).blk t).view.emb (ix2 p q)) = _
    refine congrArg (V c main_v41) (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * q.val = q.val; omega
  have h1 : iblk1 V c 1 t (ix2 (0 : Fin 1) q) = V c main_v42 (ix2 (0 : Fin 1) q) := by
    show V c main_v42 (((cfg1.win 1).blk t).view.emb (ix2 (0 : Fin 1) q)) = _
    refine congrArg (V c main_v42) (funext fun a => Fin.ext ?_)
    match a with
    | ⟨0, _⟩ => show win1_1.index t (0 : Fin 2) * 1 + 1 * 0 = 0; omega
    | ⟨1, _⟩ => show win1_1.index t (1 : Fin 2) * 64 + 1 * q.val = q.val; omega
  rw [h0, h1]
  rfl

/-- An index of the result array is in point t's block iff each coordinate is in the block's range on its axis. -/
theorem mem_blk (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v43).slice (win1_2.rect t)).set ↔ _
  rw [View.set_slice_whole, Rect.mem_set_unit]
  exact Iff.rfl

/-- Every index of the result array is in the block of the point its row falls in. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  have hlt : (i 0).val / 10000 < cfg1.N := by rw [hN]; omega
  obtain ⟨-, -, -, -, e4, e5⟩ := idx_facts ⟨(i 0).val / 10000, hlt⟩
  refine ⟨⟨(i 0).val / 10000, hlt⟩, flush1_2 _, ?_⟩
  rw [mem_blk]
  intro a
  match a with
  | ⟨0, _⟩ =>
    show win1_2.index ⟨(i 0).val / 10000, hlt⟩ (0 : Fin 2) * 10000 ≤ (i 0).val
      ∧ (i 0).val < win1_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, hlt⟩ (1 : Fin 2) * 64 ≤ (i 1).val
      ∧ (i 1).val < win1_2.index ⟨(i 0).val / 10000, hlt⟩ (1 : Fin 2) * 64 + 64
    rw [e5]; omega

/-- After the region its result array is that function of the two arrays the region found. -/
theorem final (c : Dev nD) : (dat1 V c).arrAt 2 cfg1.N = G (V c main_v41) (V c main_v42) :=
  (dat1 V c).arrAt_eq_of_cover 2 (G (V c main_v41) (V c main_v42)) (fun t _ => flushed_eq V c t) cover

end Cert.KernelIdeal.Region1

end
-- ==== Proof.Region2.lean ====
/-
  Region 2 of the idealized kernel: a matrix product tiled over the rows.

  The grid has ten points; point t stages rows 10000 t … 10000 t + 9999 of the left operand and the whole right
  operand, and writes back the same rows of the result. At the ideal values the body's product of the block (both
  operands rounded to a narrower format first, which changes nothing) is, entry by entry, the same sum over the
  contracted axis as the whole product's at that row. The ten blocks tile the result array, so after the region the
  array is the whole product of the two arrays the region found.
-/
import proofs.«170497_j11793980195193_1_alg».proof.Proof.Gen.KernelIdeal.Frame
import proofs.«170497_j11793980195193_1_alg».proof.Proof.LibRowBlocks
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole product of the two arrays. -/
abbrev G (a0 : FVec Ideal S100000x64 .f32) (a1 : FVec Ideal S64x41 .f32) : FVec Ideal S100000x41 .f32 :=
  Host.dotGeneral (F := Ideal) (DotDims.plain 100000 64 41) none a0 a1

/-- The body's one payload is the product of its two loaded blocks into a zero accumulator. -/
theorem pay_eq (x0 : Vec Ideal S10000x64 .f32) (x1 : Vec Ideal S64x41 .f32) :
    k2_pay1 x0 x1 = FloatOps.matmul (F := Ideal) (DotDims.plain 10000 64 41) none (truncf .bf16 x0 bitsLt_bf16_f32)
      (truncf .bf16 x1 bitsLt_bf16_f32) (constant ⟨2, ![10000, 41]⟩ .f32 0x00000000#32) := by
  show FloatOps.matmul (F := Ideal) (DotDims.plain 10000 64 41) none
      (truncf .bf16 (shapeCast S10000x64 x0 shapeCasts_S10000x64_S10000x64) bitsLt_bf16_f32)
      (truncf .bf16 x1 bitsLt_bf16_f32) (constant ⟨2, ![10000, 41]⟩ .f32 0x00000000#32) = _
  rw [shapeCast_self]

/-- The windows' index maps over the grid: the row windows sit at block row t, the right operand's at its one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product. -/
theorem flushed_eq (c : Dev nD) (t : Fin cfg2.N) :
    (dat2 V c).flushed 2 t = ((cfg2.win 2).blk t).view.read (Elt Ideal) (G (V c main_v43) (V c main_arg4)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x41) hz]
  rw [pay_eq]
  obtain ⟨e0, e1, e2, e3, e4, e5⟩ := idx_facts t
  have ht : t.val < 10 := lt_of_lt_of_eq t.isLt N_2
  funext j
  obtain ⟨p, q, rfl⟩ : ∃ (p : Fin 10000) (q : Fin 41), j = ix2 p q := ⟨j 0, j 1, eq_ix2 j⟩
  have hp : p.val < 10000 := p.isLt
  have hemb : ((cfg2.win 2).blk t).view.emb (ix2 p q) = ix2 (⟨t.val * 10000 + p.val, by omega⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 41 + 1 * q.val = q.val; omega
  show FloatOps.matmul (F := Ideal) (DotDims.plain 10000 64 41) none (truncf .bf16 (iblk2 V c 0 t) bitsLt_bf16_f32)
      (truncf .bf16 (iblk2 V c 1 t) bitsLt_bf16_f32) (constant ⟨2, ![10000, 41]⟩ .f32 0x00000000#32) (ix2 p q)
    = G (V c main_v43) (V c main_arg4) (((cfg2.win 2).blk t).view.emb (ix2 p q))
  rw [hemb]
  refine Cert.Lib.RowBlocks.matmul_rows_apply bitsLt_bf16_f32 (iblk2 V c 0 t) (iblk2 V c 1 t) (V c main_v43) (V c main_arg4)
    (fun p' => (⟨t.val * 10000 + p'.val, by have := p'.isLt; omega⟩ : Fin 100000)) (fun p' k => ?_) (fun k q' => ?_) p q
  · show V c main_v43 (((cfg2.win 0).blk t).view.emb (ix2 p' k)) = _
    refine congrArg (V c main_v43) (funext fun a => Fin.ext ?_)
    match a with
    | ⟨0, _⟩ => show win2_0.index t (0 : Fin 2) * 10000 + 1 * p'.val = t.val * 10000 + p'.val; omega
    | ⟨1, _⟩ => show win2_0.index t (1 : Fin 2) * 64 + 1 * k.val = k.val; omega
  · show V c main_arg4 (((cfg2.win 1).blk t).view.emb (ix2 k q')) = _
    refine congrArg (V c main_arg4) (funext fun a => Fin.ext ?_)
    match a with
    | ⟨0, _⟩ => show win2_1.index t (0 : Fin 2) * 64 + 1 * k.val = k.val; omega
    | ⟨1, _⟩ => show win2_1.index t (1 : Fin 2) * 41 + 1 * q'.val = q'.val; omega

/-- An index of the result array is in point t's block iff each coordinate is in the block's range on its axis. -/
theorem mem_blk (t : Fin cfg2.N) (i : S100000x41.Idx) :
    i ∈ ((cfg2.win 2).blk t).view.set ↔ ∀ a : Fin 2, win2_2.index t a * S10000x41.size a ≤ (i a).val
      ∧ (i a).val < win2_2.index t a * S10000x41.size a + S10000x41.size a := by
  show i ∈ ((View.whole main_v44).slice (win2_2.rect t)).set ↔ _
  rw [View.set_slice_whole, Rect.mem_set_unit]
  exact Iff.rfl

/-- Every index of the result array is in the block of the point its row falls in. -/
theorem cover (i : S100000x41.Idx) : ∃ t : Fin cfg2.N, (cfg2.win 2).flush t = true ∧ i ∈ ((cfg2.win 2).blk t).view.set := by
  have hi0 : (i 0).val < 100000 := (i 0).isLt
  have hi1 : (i 1).val < 41 := (i 1).isLt
  have hN : cfg2.N = 10 := N_2
  have hlt : (i 0).val / 10000 < cfg2.N := by rw [hN]; omega
  obtain ⟨-, -, -, -, e4, e5⟩ := idx_facts ⟨(i 0).val / 10000, hlt⟩
  refine ⟨⟨(i 0).val / 10000, hlt⟩, flush2_2 _, ?_⟩
  rw [mem_blk]
  intro a
  match a with
  | ⟨0, _⟩ =>
    show win2_2.index ⟨(i 0).val / 10000, hlt⟩ (0 : Fin 2) * 10000 ≤ (i 0).val
      ∧ (i 0).val < win2_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, hlt⟩ (1 : Fin 2) * 41 ≤ (i 1).val
      ∧ (i 1).val < win2_2.index ⟨(i 0).val / 10000, hlt⟩ (1 : Fin 2) * 41 + 41
    rw [e5]; omega

/-- After the region its result array is the whole product of the two arrays the region found. -/
theorem final (c : Dev nD) : (dat2 V c).arrAt 2 cfg2.N = G (V c main_v43) (V c main_arg4) :=
  (dat2 V c).arrAt_eq_of_cover 2 (G (V c main_v43) (V c main_arg4)) (fun t _ => flushed_eq V c t) cover

end Cert.KernelIdeal.Region2

end
-- ==== Proof.Region3.lean ====
/-
  Region 3 of the idealized kernel: a bias added to every row, tiled over the rows.

  The grid has ten points; point t stages rows 10000 t … 10000 t + 9999 of the array and the one-row bias, and writes
  back the same rows of the result: entry (p, q) of the block is x (p, q) + b (0, q). The ten
  blocks tile the result array, so after the region the array is that function of the two arrays the region found.
-/
import proofs.«170497_j11793980195193_1_alg».proof.Proof.Gen.KernelIdeal.Frame
import proofs.«170497_j11793980195193_1_alg».proof.Proof.LibRowBlocks
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every row of the array plus the one-row bias. -/
def G (a0 : FVec Ideal S100000x41 .f32) (a1 : FVec Ideal S1x41 .f32) : FVec Ideal S100000x41 .f32 :=
  fun i => a0 i + a1 (ix2 (0 : Fin 1) (⟨(i 1).val, (i 1).isLt⟩ : Fin 41))

/-- The body's one payload, as operations of its two loaded blocks. -/
theorem pay_eq (x0 : Vec Ideal S10000x41 .f32) (x1 : Vec Ideal S1x41 .f32) :
    k3_pay1 x0 x1 = addf (shapeCast ⟨2, ![10000, 41]⟩ x0 shapeCasts_S10000x41_S10000x41)
      (broadcastTo ⟨2, ![10000, 41]⟩ (shapeCast ⟨2, ![1, 41]⟩ x1 shapeCasts_S1x41_S1x41) broadcasts_S1x41_S10000x41) := rfl

/-- The windows' index maps over the grid: the row windows sit at block row t, the bias's at its one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of that function of the arrays. -/
theorem flushed_eq (c : Dev nD) (t : Fin cfg3.N) :
    (dat3 V c).flushed 2 t = ((cfg3.win 2).blk t).view.read (Elt Ideal) (G (V c main_v57) (V c main_v58)) := by
  show (cfg3.win 2).cut (grid3.coords t) ((dat3 V c).after 2 t) = _
  rw [after3_2]
  unfold out3_2
  rw [View.canon_unit_zero hz]
  simp only [View.ld_unit_zero (S := S10000x41) hz, View.ld_unit_zero (S := S1x41) hz]
  rw [pay_eq]
  obtain ⟨e0, e1, e2, e3, e4, e5⟩ := idx_facts t
  have ht : t.val < 10 := lt_of_lt_of_eq t.isLt N_3
  funext j
  obtain ⟨p, q, rfl⟩ : ∃ (p : Fin 10000) (q : Fin 41), j = ix2 p q := ⟨j 0, j 1, eq_ix2 j⟩
  have hp : p.val < 10000 := p.isLt
  have hemb : ((cfg3.win 2).blk t).view.emb (ix2 p q) = ix2 (⟨t.val * 10000 + p.val, by omega⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 41 + 1 * q.val = q.val; omega
  show (addf (shapeCast ⟨2, ![10000, 41]⟩ (iblk3 V c 0 t) shapeCasts_S10000x41_S10000x41)
      (broadcastTo ⟨2, ![10000, 41]⟩ (shapeCast ⟨2, ![1, 41]⟩ (iblk3 V c 1 t) shapeCasts_S1x41_S1x41) broadcasts_S1x41_S10000x41) : FVec Ideal ⟨2, ![10000, 41]⟩ .f32) (ix2 p q)
    = G (V c main_v57) (V c main_v58) (((cfg3.win 2).blk t).view.emb (ix2 p q))
  rw [hemb]
  refine (Cert.Lib.RowBlocks.bias_rows_apply (iblk3 V c 0 t) (iblk3 V c 1 t) shapeCasts_S10000x41_S10000x41 shapeCasts_S1x41_S1x41
    broadcasts_S1x41_S10000x41 p q).trans ?_
  have h0 : iblk3 V c 0 t (ix2 p q) = V c main_v57 (ix2 (⟨t.val * 10000 + p.val, by omega⟩ : Fin 100000) q) := by
    show V c main_v57 (((cfg3.win 0).blk t).view.emb (ix2 p q)) = _
    refine congrArg (V c main_v57) (funext fun a => Fin.ext ?_)
    match a with
    | ⟨0, _⟩ => show win3_0.index t (0 : Fin 2) * 10000 + 1 * p.val = t.val * 10000 + p.val; omega
    | ⟨1, _⟩ => show win3_0.index t (1 : Fin 2) * 41 + 1 * q.val = q.val; omega
  have h1 : iblk3 V c 1 t (ix2 (0 : Fin 1) q) = V c main_v58 (ix2 (0 : Fin 1) q) := by
    show V c main_v58 (((cfg3.win 1).blk t).view.emb (ix2 (0 : Fin 1) q)) = _
    refine congrArg (V c main_v58) (funext fun a => Fin.ext ?_)
    match a with
    | ⟨0, _⟩ => show win3_1.index t (0 : Fin 2) * 1 + 1 * 0 = 0; omega
    | ⟨1, _⟩ => show win3_1.index t (1 : Fin 2) * 41 + 1 * q.val = q.val; omega
  rw [h0, h1]
  rfl

/-- An index of the result array is in point t's block iff each coordinate is in the block's range on its axis. -/
theorem mem_blk (t : Fin cfg3.N) (i : S100000x41.Idx) :
    i ∈ ((cfg3.win 2).blk t).view.set ↔ ∀ a : Fin 2, win3_2.index t a * S10000x41.size a ≤ (i a).val
      ∧ (i a).val < win3_2.index t a * S10000x41.size a + S10000x41.size a := by
  show i ∈ ((View.whole main_v59).slice (win3_2.rect t)).set ↔ _
  rw [View.set_slice_whole, Rect.mem_set_unit]
  exact Iff.rfl

/-- Every index of the result array is in the block of the point its row falls in. -/
theorem cover (i : S100000x41.Idx) : ∃ t : Fin cfg3.N, (cfg3.win 2).flush t = true ∧ i ∈ ((cfg3.win 2).blk t).view.set := by
  have hi0 : (i 0).val < 100000 := (i 0).isLt
  have hi1 : (i 1).val < 41 := (i 1).isLt
  have hN : cfg3.N = 10 := N_3
  have hlt : (i 0).val / 10000 < cfg3.N := by rw [hN]; omega
  obtain ⟨-, -, -, -, e4, e5⟩ := idx_facts ⟨(i 0).val / 10000, hlt⟩
  refine ⟨⟨(i 0).val / 10000, hlt⟩, flush3_2 _, ?_⟩
  rw [mem_blk]
  intro a
  match a with
  | ⟨0, _⟩ =>
    show win3_2.index ⟨(i 0).val / 10000, hlt⟩ (0 : Fin 2) * 10000 ≤ (i 0).val
      ∧ (i 0).val < win3_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, hlt⟩ (1 : Fin 2) * 41 ≤ (i 1).val
      ∧ (i 1).val < win3_2.index ⟨(i 0).val / 10000, hlt⟩ (1 : Fin 2) * 41 + 41
    rw [e5]; omega

/-- After the region its result array is that function of the two arrays the region found. -/
theorem final (c : Dev nD) : (dat3 V c).arrAt 2 cfg3.N = G (V c main_v57) (V c main_v58) :=
  (dat3 V c).arrAt_eq_of_cover 2 (G (V c main_v57) (V c main_v58)) (fun t _ => flushed_eq V c t) cover

end Cert.KernelIdeal.Region3

end
-- ==== Proof.LibPadReads.lean ====
/-
  Small re-layings read at an entry, over arbitrary extents: an array padded at the END of its leading axis (rows appended
  to a matrix, entries appended to a vector; no padding in front, none between the entries) reads the original inside the
  original's extent, whatever the padding value; a vector laid out as a one-row array reads the vector; the leading
  columns of a two-axis array, sliced out from offset zero, read the array.
-/
import Idealize.ShloMosaic.Lib.Pipeline.Value
import Idealize.ShloMosaic.Lib.ValueIdx

noncomputable section

namespace Cert.Lib.PadReads

open Idealize.ShloMosaic Idealize.ShloMosaic.ValueIdx

/-- An `[a, b]` matrix with `hi` rows appended (to `[t, b]`) reads, at row `p < a`, the matrix at row `p`. -/
theorem pad_tail_rows_apply {α : Type} {a b t hi : ℕ} (x : (⟨2, ![a, b]⟩ : Shape).Idx → α) {u : Shape} (v : u.Idx → α)
    (h : (⟨2, ![a, b]⟩ : Shape).Pads ![0, 0] ![hi, 0] ![0, 0] ⟨2, ![t, b]⟩) (hu : 0 < u.numel) (p : Fin a) (q : Fin b)
    (hp : p.val < t) :
    pad ⟨2, ![t, b]⟩ ![0, 0] ![hi, 0] ![0, 0] x v h hu (ix2 (⟨p.val, hp⟩ : Fin t) q) = x (ix2 p q) := by
  unfold pad
  rw [dif_pos (fun ax => by
    match ax with
    | ⟨0, _⟩ => exact ⟨Nat.zero_le _, Nat.mod_one _, by show (p.val - 0) / (0 + 1) < a; have := p.isLt; simpa using this⟩
    | ⟨1, _⟩ => exact ⟨Nat.zero_le _, Nat.mod_one _, by show (q.val - 0) / (0 + 1) < b; have := q.isLt; simpa using this⟩)]
  refine congrArg x (funext fun ax => Fin.ext ?_)
  match ax with
  | ⟨0, _⟩ => show (p.val - 0) / (0 + 1) = p.val; simp
  | ⟨1, _⟩ => show (q.val - 0) / (0 + 1) = q.val; simp

/-- An `[a]` vector with `hi` entries appended (to `[t]`) reads, at `p < a`, the vector at `p`. -/
theorem pad_tail_vec_apply {α : Type} {a t hi : ℕ} (x : (⟨1, ![a]⟩ : Shape).Idx → α) {u : Shape} (v : u.Idx → α)
    (h : (⟨1, ![a]⟩ : Shape).Pads ![0] ![hi] ![0] ⟨1, ![t]⟩) (hu : 0 < u.numel) (p : Fin a) (hp : p.val < t) :
    pad ⟨1, ![t]⟩ ![0] ![hi] ![0] x v h hu (ix1 (⟨p.val, hp⟩ : Fin t)) = x (ix1 p) := by
  unfold pad
  rw [dif_pos (fun ax => by
    match ax with
    | ⟨0, _⟩ => exact ⟨Nat.zero_le _, Nat.mod_one _, by show (p.val - 0) / (0 + 1) < a; have := p.isLt; simpa using this⟩)]
  refine congrArg x (funext fun ax => Fin.ext ?_)
  match ax with
  | ⟨0, _⟩ => show (p.val - 0) / (0 + 1) = p.val; simp

/-- A `[b]` vector laid out as a `[1, b]` row reads, at `(0, q)`, the vector at `q`: the same row-major position. -/
theorem reshape_row_apply {α : Type} {b : ℕ} (x : (⟨1, ![b]⟩ : Shape).Idx → α)
    (h : (⟨1, ![b]⟩ : Shape).ShapeCasts ⟨2, ![1, b]⟩) (q : Fin b) :
    shapeCast ⟨2, ![1, b]⟩ x h (ix2 (0 : Fin 1) q) = x (ix1 q) :=
  shapeCast_apply x h _ (ix1 q) (by
    rw [Shape.rowMajor_val_one, Shape.rowMajor_val_two]
    show q.val = 0 * b + q.val
    omega)

/-- The leading `b'` columns of an `[a, b]` array, sliced out from offset zero, read the array. -/
theorem slice_lead_cols_apply {α : Type} {a b b' : ℕ} (Y : (⟨2, ![a, b]⟩ : Shape).Idx → α)
    (h : (⟨2, ![a, b]⟩ : Shape).Slices ![0, 0] ⟨2, ![a, b']⟩) (n : Fin a) (j : Fin b') (hj : j.val < b) :
    extractStridedSlice ⟨2, ![a, b']⟩ ![0, 0] Y h (ix2 n j) = Y (ix2 n (⟨j.val, hj⟩ : Fin b)) := by
  refine extractStridedSlice_apply ![0, 0] Y h _ (ix2 n (⟨j.val, hj⟩ : Fin b)) fun ax => ?_
  match ax with
  | ⟨0, _⟩ => show n.val = 0 + n.val; omega
  | ⟨1, _⟩ => show j.val = 0 + j.val; omega

end Cert.Lib.PadReads

end
-- ==== Proof.Boundaries.lean ====
/-
  The buffers of the idealized kernel at every boundary between its host stretches and kernel regions, each as the
  reference program's own stage function of the arguments.

  The kernel program is: the edge arrays (source, destination, normalisation weight); region 0, x·W1 tiled over the
  rows; a host stretch that gathers the rows at the sources, scales each by its edge's weight and scatter-adds them at
  the destinations; region 1, bias and relu; region 2, the product with W2; the same aggregation; region 3, the second
  bias. The reference runs the same operations with the four regions as single host operations. Reading the
  boundaries in order, every buffer a later stretch or region uses is the reference's stage of the same name: a host
  stretch's result is the same term once its operands are, and a region's result array is the whole-array function of
  the region's module, which is the reference's operation entry by entry. The weight of an edge is computed once here
  and twice by the reference, by the same term.
-/
import proofs.«170497_j11793980195193_1_alg».proof.Proof.Gen.KernelIdeal.Frame
import proofs.«170497_j11793980195193_1_alg».proof.Proof.Gen.ReferenceIdeal.Read
import proofs.«170497_j11793980195193_1_alg».proof.Proof.Boundary1
import proofs.«170497_j11793980195193_1_alg».proof.Proof.Region0
import proofs.«170497_j11793980195193_1_alg».proof.Proof.Region1
import proofs.«170497_j11793980195193_1_alg».proof.Proof.Region2
import proofs.«170497_j11793980195193_1_alg».proof.Proof.Region3
import proofs.«170497_j11793980195193_1_alg».proof.Proof.LibPadReads
import Idealize.ShloMosaic.Lib.StableHlo.Run

set_option maxRecDepth 16384

noncomputable section

namespace Cert.KernelIdeal.Boundaries

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read

variable (m : (ℓ : Loc nD τ sig) → Buf (Elt Ideal) ℓ) (ρ : Dev nD → PrngReg)

/-! ## After region 0 -/

/-- Region 0 leaves the product x·W1. -/
theorem h1 (c : Dev nD) : W2 m ρ c (Proc.devRef .tc main_v28)
    = val_main_v7 (F := Ideal) (m ((c.tc : Thread nD τ).loc main_arg0)) (m ((c.tc : Thread nD τ).loc main_arg2)) := by
  refine (W2_arr m ρ c 2).trans ((Cert.KernelIdeal.Region0.final (V1 m ρ) c).trans ?_)
  show Cert.KernelIdeal.Region0.G (W1 m ρ c (Proc.devRef .tc main_arg0)) (W1 m ρ c (Proc.devRef .tc main_arg2)) = _
  rw [Cert.KernelIdeal.Boundary1.arg0, Cert.KernelIdeal.Boundary1.arg2]
  rfl

theorem src2 (c : Dev nD) : W2 m ρ c (Proc.devRef .tc main_v3) = val_main_v3 (F := Ideal) (m ((c.tc : Thread nD τ).loc main_arg1)) :=
  (W2_of_ne m ρ c main_v3 (by decide)).trans (Cert.KernelIdeal.Boundary1.src m ρ c)
theorem dst2 (c : Dev nD) : W2 m ρ c (Proc.devRef .tc main_v6) = val_main_v6 (F := Ideal) (m ((c.tc : Thread nD τ).loc main_arg1)) :=
  (W2_of_ne m ρ c main_v6 (by decide)).trans (Cert.KernelIdeal.Boundary1.dst m ρ c)
theorem norm2 (c : Dev nD) : W2 m ρ c (Proc.devRef .tc main_v27) = val_main_v28 (F := Ideal) (m ((c.tc : Thread nD τ).loc main_arg1)) :=
  (W2_of_ne m ρ c main_v27 (by decide)).trans (Cert.KernelIdeal.Boundary1.norm m ρ c)
theorem arg3_2 (c : Dev nD) : W2 m ρ c (Proc.devRef .tc main_arg3) = (m ((c.tc : Thread nD τ).loc main_arg3)) :=
  (W2_of_ne m ρ c main_arg3 (by decide)).trans (Cert.KernelIdeal.Boundary1.arg3 m ρ c)
theorem arg4_2 (c : Dev nD) : W2 m ρ c (Proc.devRef .tc main_arg4) = (m ((c.tc : Thread nD τ).loc main_arg4)) :=
  (W2_of_ne m ρ c main_arg4 (by decide)).trans (Cert.KernelIdeal.Boundary1.arg4 m ρ c)
theorem arg5_2 (c : Dev nD) : W2 m ρ c (Proc.devRef .tc main_arg5) = (m ((c.tc : Thread nD τ).loc main_arg5)) :=
  (W2_of_ne m ρ c main_arg5 (by decide)).trans (Cert.KernelIdeal.Boundary1.arg5 m ρ c)

/-! ## After the first aggregation -/

set_option maxHeartbeats 4000000 in
/-- The first aggregation: the reference's scatter-add of the scaled gathered rows of x·W1. -/
theorem agg1 (c : Dev nD) : W3 m ρ c (Proc.devRef .tc main_v41)
    = val_main_v41 (F := Ideal) (m ((c.tc : Thread nD τ).loc main_arg0)) (m ((c.tc : Thread nD τ).loc main_arg1)) (m ((c.tc : Thread nD τ).loc main_arg2)) := by
  show StableHlo.after hostOps1 (W2 m ρ c) (Proc.devRef .tc main_v41) = _
  dsimp only [hostOps1]
  after_results_simp
  rw [h1, src2, dst2, norm2]
  rfl

/-- The first bias as a one-row array. -/
theorem bias1 (c : Dev nD) : W3 m ρ c (Proc.devRef .tc main_v42)
    = shapeCast S1x64 (m ((c.tc : Thread nD τ).loc main_arg3)) shapeCasts_S64_S1x64 := by
  show StableHlo.after hostOps1 (W2 m ρ c) (Proc.devRef .tc main_v42) = _
  dsimp only [hostOps1]
  after_results
  rw [arg3_2]
  rfl

theorem src3 (c : Dev nD) : W3 m ρ c (Proc.devRef .tc main_v3) = val_main_v3 (F := Ideal) (m ((c.tc : Thread nD τ).loc main_arg1)) := by
  refine Eq.trans ?_ (src2 m ρ c)
  show StableHlo.after hostOps1 (W2 m ρ c) (Proc.devRef .tc main_v3) = _
  dsimp only [hostOps1]
  after_results
theorem dst3 (c : Dev nD) : W3 m ρ c (Proc.devRef .tc main_v6) = val_main_v6 (F := Ideal) (m ((c.tc : Thread nD τ).loc main_arg1)) := by
  refine Eq.trans ?_ (dst2 m ρ c)
  show StableHlo.after hostOps1 (W2 m ρ c) (Proc.devRef .tc main_v6) = _
  dsimp only [hostOps1]
  after_results
theorem norm3 (c : Dev nD) : W3 m ρ c (Proc.devRef .tc main_v27) = val_main_v28 (F := Ideal) (m ((c.tc : Thread nD τ).loc main_arg1)) := by
  refine Eq.trans ?_ (norm2 m ρ c)
  show StableHlo.after hostOps1 (W2 m ρ c) (Proc.devRef .tc main_v27) = _
  dsimp only [hostOps1]
  after_results
theorem arg4_3 (c : Dev nD) : W3 m ρ c (Proc.devRef .tc main_arg4) = (m ((c.tc : Thread nD τ).loc main_arg4)) := by
  refine Eq.trans ?_ (arg4_2 m ρ c)
  show StableHlo.after hostOps1 (W2 m ρ c) (Proc.devRef .tc main_arg4) = _
  dsimp only [hostOps1]
  after_results
theorem arg5_3 (c : Dev nD) : W3 m ρ c (Proc.devRef .tc main_arg5) = (m ((c.tc : Thread nD τ).loc main_arg5)) := by
  refine Eq.trans ?_ (arg5_2 m ρ c)
  show StableHlo.after hostOps1 (W2 m ρ c) (Proc.devRef .tc main_arg5) = _
  dsimp only [hostOps1]
  after_results

/-! ## After region 1 -/

/-- Region 1 leaves the maximum of (aggregation + first bias) with zero: the reference's hidden layer. -/
theorem hidden (c : Dev nD) : W4 m ρ c (Proc.devRef .tc main_v43)
    = val_main_v45 (F := Ideal) (m ((c.tc : Thread nD τ).loc main_arg0)) (m ((c.tc : Thread nD τ).loc main_arg1)) (m ((c.tc : Thread nD τ).loc main_arg2)) (m ((c.tc : Thread nD τ).loc main_arg3)) := by
  refine (W4_arr m ρ c 2).trans ((Cert.KernelIdeal.Region1.final (V3 m ρ) c).trans ?_)
  show Cert.KernelIdeal.Region1.G (W3 m ρ c (Proc.devRef .tc main_v41)) (W3 m ρ c (Proc.devRef .tc main_v42)) = _
  rw [agg1, bias1]
  funext i
  rw [val_main_v45_apply, val_main_v44_apply, val_main_v43_apply, val_main_v42_apply, val_main_call0_v0_apply]
  have hidx : idx_main_v42 (idx_main_v43 i) = ix1 (⟨(i 1).val, (i 1).isLt⟩ : Fin 64) :=
    funext fun a => Fin.ext (by match a with | ⟨0, _⟩ => rfl)
  rw [hidx]
  unfold Cert.KernelIdeal.Region1.G
  show max (_ + shapeCast ⟨2, ![1, 64]⟩ (m ((c.tc : Thread nD τ).loc main_arg3)) shapeCasts_S64_S1x64 (ix2 (0 : Fin 1) (⟨(i 1).val, (i 1).isLt⟩ : Fin 64))) _ = _
  rw [Cert.Lib.PadReads.reshape_row_apply]
  rfl

theorem src4 (c : Dev nD) : W4 m ρ c (Proc.devRef .tc main_v3) = val_main_v3 (F := Ideal) (m ((c.tc : Thread nD τ).loc main_arg1)) :=
  (W4_of_ne m ρ c main_v3 (by decide)).trans (src3 m ρ c)
theorem dst4 (c : Dev nD) : W4 m ρ c (Proc.devRef .tc main_v6) = val_main_v6 (F := Ideal) (m ((c.tc : Thread nD τ).loc main_arg1)) :=
  (W4_of_ne m ρ c main_v6 (by decide)).trans (dst3 m ρ c)
theorem norm4 (c : Dev nD) : W4 m ρ c (Proc.devRef .tc main_v27) = val_main_v28 (F := Ideal) (m ((c.tc : Thread nD τ).loc main_arg1)) :=
  (W4_of_ne m ρ c main_v27 (by decide)).trans (norm3 m ρ c)
theorem arg4_4 (c : Dev nD) : W4 m ρ c (Proc.devRef .tc main_arg4) = (m ((c.tc : Thread nD τ).loc main_arg4)) :=
  (W4_of_ne m ρ c main_arg4 (by decide)).trans (arg4_3 m ρ c)
theorem arg5_4 (c : Dev nD) : W4 m ρ c (Proc.devRef .tc main_arg5) = (m ((c.tc : Thread nD τ).loc main_arg5)) :=
  (W4_of_ne m ρ c main_arg5 (by decide)).trans (arg5_3 m ρ c)

/-! ## After region 2 -/

/-- Region 2 leaves the product hidden·W2. -/
theorem h2 (c : Dev nD) : W5 m ρ c (Proc.devRef .tc main_v44)
    = val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W5_arr m ρ c 2).trans ((Cert.KernelIdeal.Region2.final (V4 m ρ) c).trans ?_)
  show Cert.KernelIdeal.Region2.G (W4 m ρ c (Proc.devRef .tc main_v43)) (W4 m ρ c (Proc.devRef .tc main_arg4)) = _
  rw [hidden, arg4_4]
  rfl

theorem src5 (c : Dev nD) : W5 m ρ c (Proc.devRef .tc main_v3) = val_main_v3 (F := Ideal) (m ((c.tc : Thread nD τ).loc main_arg1)) :=
  (W5_of_ne m ρ c main_v3 (by decide)).trans (src4 m ρ c)
theorem dst5 (c : Dev nD) : W5 m ρ c (Proc.devRef .tc main_v6) = val_main_v6 (F := Ideal) (m ((c.tc : Thread nD τ).loc main_arg1)) :=
  (W5_of_ne m ρ c main_v6 (by decide)).trans (dst4 m ρ c)
theorem norm5 (c : Dev nD) : W5 m ρ c (Proc.devRef .tc main_v27) = val_main_v28 (F := Ideal) (m ((c.tc : Thread nD τ).loc main_arg1)) :=
  (W5_of_ne m ρ c main_v27 (by decide)).trans (norm4 m ρ c)
theorem arg5_5 (c : Dev nD) : W5 m ρ c (Proc.devRef .tc main_arg5) = (m ((c.tc : Thread nD τ).loc main_arg5)) :=
  (W5_of_ne m ρ c main_arg5 (by decide)).trans (arg5_4 m ρ c)

/-! ## After the second aggregation -/

/-- The reference computes the edge weights a second time, by the same term. -/
theorem norm_again (x1 : (⟨Cert.ReferenceIdeal.S2x1600000, .i32⟩ : BufTy).Contents (Elt Ideal)) :
    val_main_v67 (F := Ideal) x1 = val_main_v28 (F := Ideal) x1 := rfl

set_option maxHeartbeats 4000000 in
/-- The second aggregation: the reference's scatter-add of the scaled gathered rows of hidden·W2. -/
theorem agg2 (c : Dev nD) : W6 m ρ c (Proc.devRef .tc main_v57)
    = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps3 (W5 m ρ c) (Proc.devRef .tc main_v57) = _
  dsimp only [hostOps3]
  after_results_simp
  rw [h2, src5, dst5, norm5, ← norm_again]
  rfl

/-- The second bias as a one-row array. -/
theorem bias2 (c : Dev nD) : W6 m ρ c (Proc.devRef .tc main_v58)
    = shapeCast S1x41 (m ((c.tc : Thread nD τ).loc main_arg5)) shapeCasts_S41_S1x41 := by
  show StableHlo.after hostOps3 (W5 m ρ c) (Proc.devRef .tc main_v58) = _
  dsimp only [hostOps3]
  after_results
  rw [arg5_5]
  rfl

/-! ## After region 3 -/

/-- Region 3 leaves aggregation + second bias: the reference's result. -/
theorem out (c : Dev nD) : W7 m ρ c (Proc.devRef .tc main_v59)
    = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W7_arr m ρ c 2).trans ((Cert.KernelIdeal.Region3.final (V6 m ρ) c).trans ?_)
  show Cert.KernelIdeal.Region3.G (W6 m ρ c (Proc.devRef .tc main_v57)) (W6 m ρ c (Proc.devRef .tc main_v58)) = _
  rw [agg2, bias2]
  funext i
  rw [val_main_v83_apply, val_main_v82_apply, val_main_v81_apply]
  have hidx : idx_main_v81 (idx_main_v82 i) = ix1 (⟨(i 1).val, (i 1).isLt⟩ : Fin 41) :=
    funext fun a => Fin.ext (by match a with | ⟨0, _⟩ => rfl)
  rw [hidx]
  unfold Cert.KernelIdeal.Region3.G
  show _ + shapeCast ⟨2, ![1, 41]⟩ (m ((c.tc : Thread nD τ).loc main_arg5)) shapeCasts_S41_S1x41 (ix2 (0 : Fin 1) (⟨(i 1).val, (i 1).isLt⟩ : Fin 41)) = _
  rw [Cert.Lib.PadReads.reshape_row_apply]
  rfl

end Cert.KernelIdeal.Boundaries

end
-- ==== Proof.lean ====
/-
  A two-layer graph convolution network, the kernel program against its reference, equal as extended reals.

  Both programs compute, for node features x, an edge list, weights W1, W2 and biases b1, b2,
      out = A·(relu(A·(x·W1) + b1)·W2) + b2,
  where A·h gathers the rows of h at every edge's source, scales each by the edge's weight degree(src)^(-1/2) ·
  degree(dst)^(-1/2) and adds it into the row of the edge's destination (self-loops appended to the edges, the degree a
  scatter-add of ones over the destinations). The kernel program runs the two products and the two bias steps as
  kernels tiled over blocks of 10000 rows, with its operands rounded to a narrower float format before each product,
  and everything else as host operations; the reference runs everything as host operations.

  At the ideal values rounding is the identity, and each tiled kernel computes, block by block, exactly the entries of
  the corresponding whole-array operation: a row of a product depends on the same row of the left operand only, and a
  bias step is entry by entry. The host operations between the kernels are the reference's, term for term, so the two
  results are one function of the arguments; no finiteness of the inputs is used. The three frames are the generated
  ones (the reference's: its generated run with the result dropped), and the idealization rewrote nothing.
-/
import proofs.«170497_j11793980195193_1_alg».proof.Defs
import proofs.«170497_j11793980195193_1_alg».proof.Proof.Gen.Kernel
import proofs.«170497_j11793980195193_1_alg».proof.Proof.Gen.Kernel.Frame
import proofs.«170497_j11793980195193_1_alg».proof.Proof.Gen.KernelIdeal
import proofs.«170497_j11793980195193_1_alg».proof.Proof.Gen.KernelIdeal.Frame
import proofs.«170497_j11793980195193_1_alg».proof.Proof.Gen.ReferenceIdeal
import proofs.«170497_j11793980195193_1_alg».proof.Proof.Gen.Pre_finite_inputs
import proofs.«170497_j11793980195193_1_alg».proof.Proof.Gen.ReferenceIdeal.Run
import proofs.«170497_j11793980195193_1_alg».proof.Proof.Gen.ReferenceIdeal.Read
import proofs.«170497_j11793980195193_1_alg».proof.Proof.KernelRun
import proofs.«170497_j11793980195193_1_alg».proof.Proof.Boundaries
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the reference's last stage function of the arguments: the kernel program's by
    reading its boundaries in order, the reference's by its generated run; the arguments agree. -/
theorem algebraic : Cert.algebraic_KernelIdeal_ReferenceIdeal := by
  intro m ρ m' ρ' _ hagree
  refine ⟨fun c => Cert.ReferenceIdeal.Read.val_main_v83 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Boundaries.out m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v83_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
